-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel

variable [Facts]

def fn {F : FTy → Type} [FloatOps F] (main_arg0 : FVec F S4000000x3 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  main_v3
-- ==== Kernel.lean ====
abbrev S4000000x3 : Shape := ⟨2, ![4000000, 3]⟩
abbrev S3x4000000 : Shape := ⟨2, ![3, 4000000]⟩
abbrev S9x4000000 : Shape := ⟨2, ![9, 4000000]⟩
abbrev S3x160000 : Shape := ⟨2, ![3, 160000]⟩
abbrev S9x160000 : Shape := ⟨2, ![9, 160000]⟩
abbrev S1x160000 : Shape := ⟨2, ![1, 160000]⟩
abbrev S160000 : Shape := ⟨1, ![160000]⟩
abbrev S4000000x9 : Shape := ⟨2, ![4000000, 9]⟩
abbrev S4000000x3x3 : Shape := ⟨3, ![4000000, 3, 3]⟩

abbrev nBuf : Space → Nat
  | .hbm => 5
  | .vmem => 4
  | .smem => 0
  | _ => 0

abbrev bufTy : (tb : Table) → Fin (tcTables nBuf tb) → BufTy
  | .hbm, ⟨0, _⟩ => ⟨S4000000x3, .f32⟩
  | .hbm, ⟨1, _⟩ => ⟨S3x4000000, .f32⟩
  | .hbm, ⟨2, _⟩ => ⟨S9x4000000, .f32⟩
  | .hbm, ⟨3, _⟩ => ⟨S4000000x9, .f32⟩
  | .hbm, ⟨4, _⟩ => ⟨S4000000x3x3, .f32⟩
  | .local _ .vmem, ⟨0, _⟩ => ⟨S3x160000, .f32⟩
  | .local _ .vmem, ⟨1, _⟩ => ⟨S3x160000, .f32⟩
  | .local _ .vmem, ⟨2, _⟩ => ⟨S9x160000, .f32⟩
  | .local _ .vmem, ⟨3, _⟩ => ⟨S9x160000, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S9x160000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S4000000x3_S3x4000000_1_0 : S4000000x3.Transposes [1, 0] S3x4000000
  inb_S3x160000_S1x160000_0_0 : ∀ a, (![0, 0] : Fin 2 → Nat) a + S1x160000.size a ≤ S3x160000.size a
  h_S1x160000 : 0 < S1x160000.numel
  shapeCasts_S1x160000_S160000 : S1x160000.ShapeCasts S160000
  inb_S3x160000_S1x160000_1_0 : ∀ a, (![1, 0] : Fin 2 → Nat) a + S1x160000.size a ≤ S3x160000.size a
  inb_S3x160000_S1x160000_2_0 : ∀ a, (![2, 0] : Fin 2 → Nat) a + S1x160000.size a ≤ S3x160000.size a
  inb_S9x160000_S1x160000_0_0 : ∀ a, (![0, 0] : Fin 2 → Nat) a + S1x160000.size a ≤ S9x160000.size a
  shapeCasts_S160000_S1x160000 : S160000.ShapeCasts S1x160000
  inb_S9x160000_S1x160000_1_0 : ∀ a, (![1, 0] : Fin 2 → Nat) a + S1x160000.size a ≤ S9x160000.size a
  inb_S9x160000_S1x160000_2_0 : ∀ a, (![2, 0] : Fin 2 → Nat) a + S1x160000.size a ≤ S9x160000.size a
  inb_S9x160000_S1x160000_3_0 : ∀ a, (![3, 0] : Fin 2 → Nat) a + S1x160000.size a ≤ S9x160000.size a
  inb_S9x160000_S1x160000_4_0 : ∀ a, (![4, 0] : Fin 2 → Nat) a + S1x160000.size a ≤ S9x160000.size a
  inb_S9x160000_S1x160000_5_0 : ∀ a, (![5, 0] : Fin 2 → Nat) a + S1x160000.size a ≤ S9x160000.size a
  inb_S9x160000_S1x160000_6_0 : ∀ a, (![6, 0] : Fin 2 → Nat) a + S1x160000.size a ≤ S9x160000.size a
  inb_S9x160000_S1x160000_7_0 : ∀ a, (![7, 0] : Fin 2 → Nat) a + S1x160000.size a ≤ S9x160000.size a
  inb_S9x160000_S1x160000_8_0 : ∀ a, (![8, 0] : Fin 2 → Nat) a + S1x160000.size a ≤ S9x160000.size a
  transposes_S9x4000000_S4000000x9_1_0 : S9x4000000.Transposes [1, 0] S4000000x9
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x160000.size a ≤ S3x4000000.size a
  hwx0_0 : ∀ i : grid0.Coords, EltTy.bits .f32 = 32 ∨ (Rect.block (s := S3x4000000) S3x160000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9x160000.size a ≤ S9x4000000.size a
  hwx0_1 : ∀ i : grid0.Coords, EltTy.bits .f32 = 32 ∨ (Rect.block (s := S9x4000000) S9x160000.size (cc0_transform_1 i) (hinb0_1 i)).WholeWords (EltTy.packing .f32)

variable [Facts₀]

abbrev win0_0 : Pipeline.Window sig grid0 :=
  Pipeline.Window.ofSpec (Memref.whole main_v0) S3x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S9x160000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S4000000x1 : Shape := ⟨2, ![4000000, 1]⟩
abbrev S4000000 : Shape := ⟨1, ![4000000]⟩
abbrev S_ : Shape := ⟨0, ![]⟩
abbrev S4000000x9 : Shape := ⟨2, ![4000000, 9]⟩
abbrev S4000000x3x3 : Shape := ⟨3, ![4000000, 3, 3]⟩

abbrev nBuf : Space → Nat
  | .hbm => 77
  | .vmem => 0
  | .smem => 0
  | _ => 0

abbrev bufTy : (tb : Table) → Fin (tcTables nBuf tb) → BufTy
  | .hbm, ⟨0, _⟩ => ⟨S4000000x3, .f32⟩
  | .hbm, ⟨1, _⟩ => ⟨S4000000x1, .f32⟩
  | .hbm, ⟨2, _⟩ => ⟨S4000000, .f32⟩
  | .hbm, ⟨3, _⟩ => ⟨S4000000x1, .f32⟩
  | .hbm, ⟨4, _⟩ => ⟨S4000000, .f32⟩
  | .hbm, ⟨5, _⟩ => ⟨S4000000x1, .f32⟩
  | .hbm, ⟨6, _⟩ => ⟨S4000000, .f32⟩
  | .hbm, ⟨7, _⟩ => ⟨S4000000, .f32⟩
  | .hbm, ⟨8, _⟩ => ⟨S4000000, .f32⟩
  | .hbm, ⟨9, _⟩ => ⟨S4000000, .f32⟩
  | .hbm, ⟨10, _⟩ => ⟨S4000000, .f32⟩
  | .hbm, ⟨11, _⟩ => ⟨S4000000, .f32⟩
  | .hbm, ⟨12, _⟩ => ⟨S_, .f32⟩
  | .hbm, ⟨13, _⟩ => ⟨S4000000, .f32⟩
  | .hbm, ⟨14, _⟩ => ⟨S4000000, .f32⟩
  | .hbm, ⟨15, _⟩ => ⟨S_, .f32⟩
  | .hbm, ⟨16, _⟩ => ⟨S4000000, .f32⟩
  | .hbm, ⟨17, _⟩ => ⟨S4000000, .f32⟩
  | .hbm, ⟨18, _⟩ => ⟨S4000000, .f32⟩
  | .hbm, ⟨19, _⟩ => ⟨S4000000, .f32⟩
  | .hbm, ⟨20, _⟩ => ⟨S4000000, .f32⟩
  | .hbm, ⟨21, _⟩ => ⟨S4000000, .f32⟩
  | .hbm, ⟨22, _⟩ => ⟨S_, .f32⟩
  | .hbm, ⟨23, _⟩ => ⟨S4000000, .f32⟩
  | .hbm, ⟨24, _⟩ => ⟨S4000000, .f32⟩
  | .hbm, ⟨25, _⟩ => ⟨S4000000, .f32⟩
  | .hbm, ⟨26, _⟩ => ⟨S4000000, .f32⟩
  | .hbm, ⟨27, _⟩ => ⟨S_, .f32⟩
  | .hbm, ⟨28, _⟩ => ⟨S4000000, .f32⟩
  | .hbm, ⟨29, _⟩ => ⟨S4000000, .f32⟩
  | .hbm, ⟨30, _⟩ => ⟨S4000000, .f32⟩
  | .hbm, ⟨31, _⟩ => ⟨S4000000, .f32⟩
  | .hbm, ⟨32, _⟩ => ⟨S_, .f32⟩
  | .hbm, ⟨33, _⟩ => ⟨S4000000, .f32⟩
  | .hbm, ⟨34, _⟩ => ⟨S4000000, .f32⟩
  | .hbm, ⟨35, _⟩ => ⟨S_, .f32⟩
  | .hbm, ⟨36, _⟩ => ⟨S4000000, .f32⟩
  | .hbm, ⟨37, _⟩ => ⟨S4000000, .f32⟩
  | .hbm, ⟨38, _⟩ => ⟨S4000000, .f32⟩
  | .hbm, ⟨39, _⟩ => ⟨S4000000, .f32⟩
  | .hbm, ⟨40, _⟩ => ⟨S4000000, .f32⟩
  | .hbm, ⟨41, _⟩ => ⟨S4000000, .f32⟩
  | .hbm, ⟨42, _⟩ => ⟨S_, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S4000000, .f32⟩
  | .hbm, ⟨47, _⟩ => ⟨S_, .f32⟩
  | .hbm, ⟨48, _⟩ => ⟨S4000000, .f32⟩
  | .hbm, ⟨49, _⟩ => ⟨S4000000, .f32⟩
  | .hbm, ⟨50, _⟩ => ⟨S4000000, .f32⟩
  | .hbm, ⟨51, _⟩ => ⟨S4000000, .f32⟩
  | .hbm, ⟨52, _⟩ => ⟨S_, .f32⟩
  | .hbm, ⟨53, _⟩ => ⟨S4000000, .f32⟩
  | .hbm, ⟨54, _⟩ => ⟨S4000000, .f32⟩
  | .hbm, ⟨55, _⟩ => ⟨S_, .f32⟩
  | .hbm, ⟨56, _⟩ => ⟨S4000000, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S4000000x1, .f32⟩
  | .hbm, ⟨61, _⟩ => ⟨S4000000x1, .f32⟩
  | .hbm, ⟨62, _⟩ => ⟨S4000000x1, .f32⟩
  | .hbm, ⟨63, _⟩ => ⟨S4000000x1, .f32⟩
  | .hbm, ⟨64, _⟩ => ⟨S4000000x1, .f32⟩
  | .hbm, ⟨65, _⟩ => ⟨S4000000x1, .f32⟩
  | .hbm, ⟨66, _⟩ => ⟨S4000000x1, .f32⟩
  | .hbm, ⟨67, _⟩ => ⟨S4000000x1, .f32⟩
  | .hbm, ⟨68, _⟩ => ⟨S4000000x1, .f32⟩
  | .hbm, ⟨69, _⟩ => ⟨S4000000x9, .f32⟩
  | .hbm, ⟨70, _⟩ => ⟨S_, .f32⟩
  | .hbm, ⟨71, _⟩ => ⟨S4000000, .f32⟩
  | .hbm, ⟨72, _⟩ => ⟨S4000000, .f32⟩
  | .hbm, ⟨73, _⟩ => ⟨S4000000x1, .f32⟩
  | .hbm, ⟨74, _⟩ => ⟨S4000000x9, .f32⟩
  | .hbm, ⟨75, _⟩ => ⟨S4000000x9, .f32⟩
  | .hbm, ⟨76, _⟩ => ⟨S4000000x3x3, .f32⟩
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_1 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_2 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_3 : Ref sig .tc := ⟨.hbm, 32, rfl⟩
abbrev main_v27 : Ref sig .tc := ⟨.hbm, 33, rfl⟩
abbrev main_v28 : Ref sig .tc := ⟨.hbm, 34, rfl⟩
abbrev main_cst_4 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_5 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_6 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_7 : Ref sig .tc := ⟨.hbm, 52, rfl⟩
abbrev main_v43 : Ref sig .tc := ⟨.hbm, 53, rfl⟩
abbrev main_v44 : Ref sig .tc := ⟨.hbm, 54, rfl⟩
abbrev main_cst_8 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_9 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]

class Facts₀ : Prop where
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  slices_S4000000x3_S4000000x1_0_2 : S4000000x3.Slices ![0, 2] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  bcast_S4000000x1_S4000000x9_0_1 : S4000000x1.BroadcastsInDim S4000000x9 (![0, 1] : Fin 2 → Fin S4000000x9.rank)
  shapeCasts_S4000000x9_S4000000x3x3 : S4000000x9.ShapeCasts S4000000x3x3

variable [Facts₀]

class Facts : Prop extends Facts₀ where

variable [Facts]
-- ==== Proof.Spec.lean ====
/-
  The Cayley map on the extended reals, in the two spellings this certificate joins.

  For a row (x, y, z) put s = x·x + y·y + z·z and d = 1 − s.  The nine entries of the rotation
  ((1 − s)·I + 2·A + 2·v·vᵀ) / (1 + s), A the skew matrix of v = (x, y, z), have the numerators num k below.
  One program divides each numerator by 1 + s (cay); the other multiplies it by the reciprocal 1 / (1 + s),
  taken once (cayK).  On the extended reals a square is never negative (∞·∞ = (−∞)·(−∞) = ∞), so 1 + s ≥ 1 is
  never zero, and for a nonzero divisor g the quotient a / g is a·g⁻¹ = a·(1·g⁻¹): the two spellings agree at
  every extended real, the infinities included.
-/
import Idealize.ShloMosaic.PureOps.Ideal
import Idealize.ShloMosaic.Lib.ValueIdx

noncomputable section

namespace Cert.Cayley

open Idealize.ShloMosaic Idealize.ShloMosaic.ValueIdx

/-- The f32 words of 1.0 and 2.0 as extended reals. -/
abbrev one : EReal := Ideal.ofBits .f32 0x3F800000#32
abbrev two : EReal := Ideal.ofBits .f32 0x40000000#32

/-- The word of 1.0 denotes 1. -/
theorem one_eq : one = 1 := by
  simp [one, Ideal.ofBits, Ideal.ieee, -EReal.coe_mul]; norm_num

/-- s = x·x + y·y + z·z, summed in this order. -/
def sq (x y z : EReal) : EReal := x * x + y * y + z * z

/-- d = 1 − s. -/
def dd (x y z : EReal) : EReal := one - sq x y z

/-- The nine numerators, row-major: entry k = 3·i + j of (1 − s)·I + 2·A + 2·v·vᵀ. -/
def num : Fin 9 → EReal → EReal → EReal → EReal
  | 0, x, y, z => dd x y z + two * x * x
  | 1, x, y, z => two * (x * y - z)
  | 2, x, y, z => two * (x * z + y)
  | 3, x, y, z => two * (x * y + z)
  | 4, x, y, z => dd x y z + two * y * y
  | 5, x, y, z => two * (y * z - x)
  | 6, x, y, z => two * (x * z - y)
  | 7, x, y, z => two * (y * z + x)
  | 8, x, y, z => dd x y z + two * z * z
  | ⟨_ + 9, h⟩, _, _, _ => absurd h (Nat.not_lt.2 (Nat.le_add_left _ _))

/-- The entry as a quotient by 1 + s. -/
def cay (k : Fin 9) (x y z : EReal) : EReal := Ideal.div (num k x y z) (one + sq x y z)

/-- The entry as a product with the reciprocal of 1 + s. -/
def cayK (k : Fin 9) (x y z : EReal) : EReal := num k x y z * Ideal.div one (one + sq x y z)

/-- A square is nonnegative on the extended reals, at the infinities too. -/
theorem mul_self_nonneg (x : EReal) : 0 ≤ x * x := by
  induction x using EReal.rec with
  | bot => simp
  | coe r => exact_mod_cast _root_.mul_self_nonneg r
  | top => simp

theorem sq_nonneg (x y z : EReal) : 0 ≤ sq x y z :=
  add_nonneg (add_nonneg (mul_self_nonneg x) (mul_self_nonneg y)) (mul_self_nonneg z)

/-- 1 + s is positive, so it is not zero. -/
theorem den_ne_zero (x y z : EReal) : one + sq x y z ≠ 0 := by
  rw [one_eq]
  exact ne_of_gt (add_pos_of_pos_of_nonneg one_pos (sq_nonneg x y z))

/-- For a nonzero divisor the product with the reciprocal is the quotient, at every extended real. -/
theorem mul_recip (a g : EReal) (hg : g ≠ 0) : a * Ideal.div one g = Ideal.div a g := by
  rw [one_eq]; unfold Ideal.div; rw [if_neg hg, if_neg hg, one_mul]

/-- The two spellings agree. -/
theorem cayK_eq_cay (k : Fin 9) (x y z : EReal) : cayK k x y z = cay k x y z :=
  mul_recip _ _ (den_ne_zero x y z)

/-! ## The whole arrays -/

/-- Rows of three, and the lane-dense layouts of them. -/
abbrev SRows3 : Shape := ⟨2, ![4000000, 3]⟩
abbrev SRows9 : Shape := ⟨2, ![4000000, 9]⟩
abbrev SRows33 : Shape := ⟨3, ![4000000, 3, 3]⟩
abbrev SCols3 : Shape := ⟨2, ![3, 4000000]⟩
abbrev SCols9 : Shape := ⟨2, ![9, 4000000]⟩

/-- Entry k of row n's rotation, as a quotient: an [N, 9] array. -/
def rows9 (t : SRows3.Idx → EReal) : SRows9.Idx → EReal := fun j =>
  cay (j 1) (t (ix2 (j 0) 0)) (t (ix2 (j 0) 1)) (t (ix2 (j 0) 2))

/-- The result: entry (i, j) of row n's rotation is entry 3·i + j of its nine, an [N, 3, 3] array. -/
def rot (t : SRows3.Idx → EReal) : SRows33.Idx → EReal := fun i =>
  rows9 t (ix2 (i 0) ⟨3 * (i 1).val + (i 2).val, by have h1 : (i 1).val < 3 := (i 1).isLt; have h2 : (i 2).val < 3 := (i 2).isLt; omega⟩)

/-- The lane-dense form: entry k of column n, from a [3, N] array, as a product with the reciprocal: a [9, N] array. -/
def cols9 (u : SCols3.Idx → EReal) : SCols9.Idx → EReal := fun j =>
  cayK (j 0) (u (ix2 0 (j 1))) (u (ix2 1 (j 1))) (u (ix2 2 (j 1)))

end Cert.Cayley

end
-- ==== Proof.RefValue.lean ====
/-
  The reference program read at an index: its result array is the rotation array rot of the argument.

  The reference slices the three columns x, y, z out of the [N, 3] argument, forms s, d and the nine numerators as
  [N] vectors, lays each as an [N, 1] column, joins the nine columns along axis 1 into an [N, 9] array, divides by
  1 + s broadcast along the rows, and reshapes [N, 9] to [N, 3, 3].  Entry (n, k) of the joined array is column k at
  row n, so entry (n, k) of the quotient is cay k of row n, and entry (n, i, j) of the result is entry (n, 3·i + j).
-/
import proofs.«156146_j37452114821515_2_alg».proof.Proof.Gen.ReferenceIdeal.Read
import proofs.«156146_j37452114821515_2_alg».proof.Proof.Spec
import Idealize.ShloMosaic.Lib.Pipeline.Value
import Idealize.ShloMosaic.Lib.ValueIdx

noncomputable section

namespace Cert.Cayley.Ref

open Cert.ReferenceIdeal Cert.ReferenceIdeal.Gen Cert.ReferenceIdeal.Read
open Idealize.ShloMosaic Idealize.ShloMosaic.TcCoe Idealize.ShloMosaic.ValueIdx Cert.Cayley

/-- One piece of a join of [N, 1] columns along axis 1, read at row n: when piece k of the list is x₁ and the k pieces
    before it have total width k, the joined array at (n, k) is x₁ at (n, 0). -/
theorem join_col {α : Type} (xs : List ((s : Shape) × (s.Idx → α)))
    (h : Shape.Concatenates (xs.map (·.1)) S4000000x9 (1 : Fin 2)) (n : Fin 4000000) (k : Nat) (hk9 : k < 9)
    (hk : k < xs.length) (x₁ : S4000000x1.Idx → α) (hxk : xs[k] = ⟨S4000000x1, x₁⟩)
    (hpre : (((xs.take k).map (·.1)).map fun s => if h : s.rank = S4000000x9.rank then s.size ((1 : Fin 2).cast h.symm) else 0).sum = k) :
    concatenate S4000000x9 (1 : Fin 2) xs h (ix2 n ⟨k, hk9⟩) = x₁ (ix2 n 0) :=
  concatenate_apply_piece (1 : Fin 2) xs h (ix2 n ⟨k, hk9⟩) k hk S4000000x1 x₁ hxk rfl k hpre (ix2 n 0)
    (fun b => match b with
      | ⟨0, _⟩ => fun _ => rfl
      | ⟨1, _⟩ => fun hb => absurd rfl hb)
    (by show k + 0 = k; rfl)

variable (t : (⟨S4000000x3, .f32⟩ : BufTy).Contents (Elt Ideal))

/-! ## The three columns -/

theorem colx (i : S4000000.Idx) : val_main_v1 (F := Ideal) t i = t (ix2 (i 0) 0) := by
  rw [val_main_v1_apply, val_main_v0_apply]
  exact congrArg t (funext fun a => Fin.ext (by match a with | ⟨0, _⟩ => exact Nat.div_one _ | ⟨1, _⟩ => rfl))

theorem coly (i : S4000000.Idx) : val_main_v3 (F := Ideal) t i = t (ix2 (i 0) 1) := by
  rw [val_main_v3_apply, val_main_v2_apply]
  exact congrArg t (funext fun a => Fin.ext (by match a with | ⟨0, _⟩ => exact Nat.div_one _ | ⟨1, _⟩ => rfl))

theorem colz (i : S4000000.Idx) : val_main_v5 (F := Ideal) t i = t (ix2 (i 0) 2) := by
  rw [val_main_v5_apply, val_main_v4_apply]
  exact congrArg t (funext fun a => Fin.ext (by match a with | ⟨0, _⟩ => exact Nat.div_one _ | ⟨1, _⟩ => rfl))

/-! ## The constants, broadcast -/

theorem c11 (i : S4000000.Idx) : val_main_v11 (F := Ideal) i = one := by rw [val_main_v11_apply]; rfl
theorem c59 (i : S4000000.Idx) : val_main_v59 (F := Ideal) i = one := by rw [val_main_v59_apply]; rfl
theorem c13 (i : S4000000.Idx) : val_main_v13 (F := Ideal) i = two := by rw [val_main_v13_apply]; rfl
theorem c19 (i : S4000000.Idx) : val_main_v19 (F := Ideal) i = two := by rw [val_main_v19_apply]; rfl
theorem c23 (i : S4000000.Idx) : val_main_v23 (F := Ideal) i = two := by rw [val_main_v23_apply]; rfl
theorem c27 (i : S4000000.Idx) : val_main_v27 (F := Ideal) i = two := by rw [val_main_v27_apply]; rfl
theorem c29 (i : S4000000.Idx) : val_main_v29 (F := Ideal) i = two := by rw [val_main_v29_apply]; rfl
theorem c35 (i : S4000000.Idx) : val_main_v35 (F := Ideal) i = two := by rw [val_main_v35_apply]; rfl
theorem c39 (i : S4000000.Idx) : val_main_v39 (F := Ideal) i = two := by rw [val_main_v39_apply]; rfl
theorem c43 (i : S4000000.Idx) : val_main_v43 (F := Ideal) i = two := by rw [val_main_v43_apply]; rfl
theorem c45 (i : S4000000.Idx) : val_main_v45 (F := Ideal) i = two := by rw [val_main_v45_apply]; rfl

/-! ## s, d and the nine numerators at row i -/

theorem s_at (i : S4000000.Idx) :
    val_main_v10 (F := Ideal) t i = sq (t (ix2 (i 0) 0)) (t (ix2 (i 0) 1)) (t (ix2 (i 0) 2)) := by
  rw [val_main_v10_apply, val_main_v8_apply, val_main_v9_apply, val_main_v6_apply, val_main_v7_apply, colx, coly, colz]; rfl

theorem d_at (i : S4000000.Idx) :
    val_main_v12 (F := Ideal) t i = dd (t (ix2 (i 0) 0)) (t (ix2 (i 0) 1)) (t (ix2 (i 0) 2)) := by
  rw [val_main_v12_apply, c11, s_at]; rfl

theorem n0_at (i : S4000000.Idx) :
    val_main_v16 (F := Ideal) t i = num 0 (t (ix2 (i 0) 0)) (t (ix2 (i 0) 1)) (t (ix2 (i 0) 2)) := by
  rw [val_main_v16_apply, val_main_v15_apply, val_main_v14_apply, d_at, c13, colx]; rfl
theorem n1_at (i : S4000000.Idx) :
    val_main_v20 (F := Ideal) t i = num 1 (t (ix2 (i 0) 0)) (t (ix2 (i 0) 1)) (t (ix2 (i 0) 2)) := by
  rw [val_main_v20_apply, val_main_v18_apply, val_main_v17_apply, c19, colx, coly, colz]; rfl
theorem n2_at (i : S4000000.Idx) :
    val_main_v24 (F := Ideal) t i = num 2 (t (ix2 (i 0) 0)) (t (ix2 (i 0) 1)) (t (ix2 (i 0) 2)) := by
  rw [val_main_v24_apply, val_main_v22_apply, val_main_v21_apply, c23, colx, coly, colz]; rfl
theorem n3_at (i : S4000000.Idx) :
    val_main_v28 (F := Ideal) t i = num 3 (t (ix2 (i 0) 0)) (t (ix2 (i 0) 1)) (t (ix2 (i 0) 2)) := by
  rw [val_main_v28_apply, val_main_v26_apply, val_main_v25_apply, c27, colx, coly, colz]; rfl
theorem n4_at (i : S4000000.Idx) :
    val_main_v32 (F := Ideal) t i = num 4 (t (ix2 (i 0) 0)) (t (ix2 (i 0) 1)) (t (ix2 (i 0) 2)) := by
  rw [val_main_v32_apply, val_main_v31_apply, val_main_v30_apply, d_at, c29, coly]; rfl
theorem n5_at (i : S4000000.Idx) :
    val_main_v36 (F := Ideal) t i = num 5 (t (ix2 (i 0) 0)) (t (ix2 (i 0) 1)) (t (ix2 (i 0) 2)) := by
  rw [val_main_v36_apply, val_main_v34_apply, val_main_v33_apply, c35, colx, coly, colz]; rfl
theorem n6_at (i : S4000000.Idx) :
    val_main_v40 (F := Ideal) t i = num 6 (t (ix2 (i 0) 0)) (t (ix2 (i 0) 1)) (t (ix2 (i 0) 2)) := by
  rw [val_main_v40_apply, val_main_v38_apply, val_main_v37_apply, c39, colx, coly, colz]; rfl
theorem n7_at (i : S4000000.Idx) :
    val_main_v44 (F := Ideal) t i = num 7 (t (ix2 (i 0) 0)) (t (ix2 (i 0) 1)) (t (ix2 (i 0) 2)) := by
  rw [val_main_v44_apply, val_main_v42_apply, val_main_v41_apply, c43, colx, coly, colz]; rfl
theorem n8_at (i : S4000000.Idx) :
    val_main_v48 (F := Ideal) t i = num 8 (t (ix2 (i 0) 0)) (t (ix2 (i 0) 1)) (t (ix2 (i 0) 2)) := by
  rw [val_main_v48_apply, val_main_v47_apply, val_main_v46_apply, d_at, c45, colz]; rfl

/-- The divisor 1 + s at row i. -/
theorem g_at (i : S4000000.Idx) :
    val_main_v60 (F := Ideal) t i = one + sq (t (ix2 (i 0) 0)) (t (ix2 (i 0) 1)) (t (ix2 (i 0) 2)) := by
  rw [val_main_v60_apply, c59, s_at]; rfl

/-! ## The joined numerators and the quotient -/

/-- The joined array at (n, k) is numerator k of row n. -/
theorem joined_at (n : Fin 4000000) (k : Fin 9) :
    val_main_v58 (F := Ideal) t (ix2 n k) = num k (t (ix2 n 0)) (t (ix2 n 1)) (t (ix2 n 2)) := by
  unfold val_main_v58
  match k with
  | ⟨0, h⟩ => exact (join_col (α := EReal) [⟨S4000000x1, val_main_v49 (F := Ideal) t⟩, ⟨S4000000x1, val_main_v50 (F := Ideal) t⟩, ⟨S4000000x1, val_main_v51 (F := Ideal) t⟩, ⟨S4000000x1, val_main_v52 (F := Ideal) t⟩, ⟨S4000000x1, val_main_v53 (F := Ideal) t⟩, ⟨S4000000x1, val_main_v54 (F := Ideal) t⟩, ⟨S4000000x1, val_main_v55 (F := Ideal) t⟩, ⟨S4000000x1, val_main_v56 (F := Ideal) t⟩, ⟨S4000000x1, val_main_v57 (F := Ideal) t⟩] _ n 0 h h _ rfl rfl).trans ((val_main_v49_apply t _).trans (n0_at t _))
  | ⟨1, h⟩ => exact (join_col (α := EReal) [⟨S4000000x1, val_main_v49 (F := Ideal) t⟩, ⟨S4000000x1, val_main_v50 (F := Ideal) t⟩, ⟨S4000000x1, val_main_v51 (F := Ideal) t⟩, ⟨S4000000x1, val_main_v52 (F := Ideal) t⟩, ⟨S4000000x1, val_main_v53 (F := Ideal) t⟩, ⟨S4000000x1, val_main_v54 (F := Ideal) t⟩, ⟨S4000000x1, val_main_v55 (F := Ideal) t⟩, ⟨S4000000x1, val_main_v56 (F := Ideal) t⟩, ⟨S4000000x1, val_main_v57 (F := Ideal) t⟩] _ n 1 h h _ rfl rfl).trans ((val_main_v50_apply t _).trans (n1_at t _))
  | ⟨2, h⟩ => exact (join_col (α := EReal) [⟨S4000000x1, val_main_v49 (F := Ideal) t⟩, ⟨S4000000x1, val_main_v50 (F := Ideal) t⟩, ⟨S4000000x1, val_main_v51 (F := Ideal) t⟩, ⟨S4000000x1, val_main_v52 (F := Ideal) t⟩, ⟨S4000000x1, val_main_v53 (F := Ideal) t⟩, ⟨S4000000x1, val_main_v54 (F := Ideal) t⟩, ⟨S4000000x1, val_main_v55 (F := Ideal) t⟩, ⟨S4000000x1, val_main_v56 (F := Ideal) t⟩, ⟨S4000000x1, val_main_v57 (F := Ideal) t⟩] _ n 2 h h _ rfl rfl).trans ((val_main_v51_apply t _).trans (n2_at t _))
  | ⟨3, h⟩ => exact (join_col (α := EReal) [⟨S4000000x1, val_main_v49 (F := Ideal) t⟩, ⟨S4000000x1, val_main_v50 (F := Ideal) t⟩, ⟨S4000000x1, val_main_v51 (F := Ideal) t⟩, ⟨S4000000x1, val_main_v52 (F := Ideal) t⟩, ⟨S4000000x1, val_main_v53 (F := Ideal) t⟩, ⟨S4000000x1, val_main_v54 (F := Ideal) t⟩, ⟨S4000000x1, val_main_v55 (F := Ideal) t⟩, ⟨S4000000x1, val_main_v56 (F := Ideal) t⟩, ⟨S4000000x1, val_main_v57 (F := Ideal) t⟩] _ n 3 h h _ rfl rfl).trans ((val_main_v52_apply t _).trans (n3_at t _))
  | ⟨4, h⟩ => exact (join_col (α := EReal) [⟨S4000000x1, val_main_v49 (F := Ideal) t⟩, ⟨S4000000x1, val_main_v50 (F := Ideal) t⟩, ⟨S4000000x1, val_main_v51 (F := Ideal) t⟩, ⟨S4000000x1, val_main_v52 (F := Ideal) t⟩, ⟨S4000000x1, val_main_v53 (F := Ideal) t⟩, ⟨S4000000x1, val_main_v54 (F := Ideal) t⟩, ⟨S4000000x1, val_main_v55 (F := Ideal) t⟩, ⟨S4000000x1, val_main_v56 (F := Ideal) t⟩, ⟨S4000000x1, val_main_v57 (F := Ideal) t⟩] _ n 4 h h _ rfl rfl).trans ((val_main_v53_apply t _).trans (n4_at t _))
  | ⟨5, h⟩ => exact (join_col (α := EReal) [⟨S4000000x1, val_main_v49 (F := Ideal) t⟩, ⟨S4000000x1, val_main_v50 (F := Ideal) t⟩, ⟨S4000000x1, val_main_v51 (F := Ideal) t⟩, ⟨S4000000x1, val_main_v52 (F := Ideal) t⟩, ⟨S4000000x1, val_main_v53 (F := Ideal) t⟩, ⟨S4000000x1, val_main_v54 (F := Ideal) t⟩, ⟨S4000000x1, val_main_v55 (F := Ideal) t⟩, ⟨S4000000x1, val_main_v56 (F := Ideal) t⟩, ⟨S4000000x1, val_main_v57 (F := Ideal) t⟩] _ n 5 h h _ rfl rfl).trans ((val_main_v54_apply t _).trans (n5_at t _))
  | ⟨6, h⟩ => exact (join_col (α := EReal) [⟨S4000000x1, val_main_v49 (F := Ideal) t⟩, ⟨S4000000x1, val_main_v50 (F := Ideal) t⟩, ⟨S4000000x1, val_main_v51 (F := Ideal) t⟩, ⟨S4000000x1, val_main_v52 (F := Ideal) t⟩, ⟨S4000000x1, val_main_v53 (F := Ideal) t⟩, ⟨S4000000x1, val_main_v54 (F := Ideal) t⟩, ⟨S4000000x1, val_main_v55 (F := Ideal) t⟩, ⟨S4000000x1, val_main_v56 (F := Ideal) t⟩, ⟨S4000000x1, val_main_v57 (F := Ideal) t⟩] _ n 6 h h _ rfl rfl).trans ((val_main_v55_apply t _).trans (n6_at t _))
  | ⟨7, h⟩ => exact (join_col (α := EReal) [⟨S4000000x1, val_main_v49 (F := Ideal) t⟩, ⟨S4000000x1, val_main_v50 (F := Ideal) t⟩, ⟨S4000000x1, val_main_v51 (F := Ideal) t⟩, ⟨S4000000x1, val_main_v52 (F := Ideal) t⟩, ⟨S4000000x1, val_main_v53 (F := Ideal) t⟩, ⟨S4000000x1, val_main_v54 (F := Ideal) t⟩, ⟨S4000000x1, val_main_v55 (F := Ideal) t⟩, ⟨S4000000x1, val_main_v56 (F := Ideal) t⟩, ⟨S4000000x1, val_main_v57 (F := Ideal) t⟩] _ n 7 h h _ rfl rfl).trans ((val_main_v56_apply t _).trans (n7_at t _))
  | ⟨8, h⟩ => exact (join_col (α := EReal) [⟨S4000000x1, val_main_v49 (F := Ideal) t⟩, ⟨S4000000x1, val_main_v50 (F := Ideal) t⟩, ⟨S4000000x1, val_main_v51 (F := Ideal) t⟩, ⟨S4000000x1, val_main_v52 (F := Ideal) t⟩, ⟨S4000000x1, val_main_v53 (F := Ideal) t⟩, ⟨S4000000x1, val_main_v54 (F := Ideal) t⟩, ⟨S4000000x1, val_main_v55 (F := Ideal) t⟩, ⟨S4000000x1, val_main_v56 (F := Ideal) t⟩, ⟨S4000000x1, val_main_v57 (F := Ideal) t⟩] _ n 8 h h _ rfl rfl).trans ((val_main_v57_apply t _).trans (n8_at t _))
  | ⟨k + 9, h⟩ => exact absurd h (Nat.not_lt.2 (Nat.le_add_left _ _))

/-- The divisor array at (n, k) is 1 + s of row n. -/
theorem divisor_at (n : Fin 4000000) (k : Fin 9) :
    val_main_v62 (F := Ideal) t (ix2 n k) = one + sq (t (ix2 n 0)) (t (ix2 n 1)) (t (ix2 n 2)) := by
  rw [val_main_v62_apply, val_main_v61_apply]
  exact g_at t _

/-- The quotient is the [N, 9] array of the rotations' entries. -/
theorem quotient_eq : val_main_v63 (F := Ideal) t = rows9 t := by
  funext j
  obtain ⟨n, k, rfl⟩ : ∃ (n : Fin 4000000) (k : Fin 9), j = ix2 n k := ⟨j 0, j 1, eq_ix2 j⟩
  rw [val_main_v63_apply, joined_at, divisor_at]
  rfl

/-- The reference's result is the rotation array. -/
theorem result_eq : val_main_v64 (F := Ideal) t = rot t := by
  funext i
  rw [val_main_v64_apply, quotient_eq]
  unfold rot
  refine congrArg (rows9 t) (funext fun a => Fin.ext ?_)
  have h0 : (i 0).val < 4000000 := (i 0).isLt
  have h1 : (i 1).val < 3 := (i 1).isLt
  have h2 : (i 2).val < 3 := (i 2).isLt
  match a with
  | ⟨0, _⟩ => show (((i 0).val * 3 + (i 1).val) * 3 + (i 2).val) / 9 = (i 0).val; omega
  | ⟨1, _⟩ => show (((i 0).val * 3 + (i 1).val) * 3 + (i 2).val) % 9 = 3 * (i 1).val + (i 2).val; omega

end Cert.Cayley.Ref

end
-- ==== Proof.KernelBlock.lean ====
/-
  The kernel body at one grid point: what it leaves in the [9, 160000] output block is the lane-dense Cayley map of
  its [3, 160000] input block.

  The body loads rows 0, 1, 2 of the input block as x, y, z, computes s, d, the reciprocal 1 / (1 + s) once, and the
  nine products numerator · reciprocal, lane by lane, and stores product k as row k of the output block.  The nine
  stored rows tile the block, so the block at (k, q) is cayK k of lane q's (x, y, z).
-/
import proofs.«156146_j37452114821515_2_alg».proof.Proof.Gen.KernelIdeal.Frame
import proofs.«156146_j37452114821515_2_alg».proof.Proof.Spec
import Idealize.ShloMosaic.Lib.Pipeline.Value
import Idealize.ShloMosaic.Lib.ValueIdx

set_option maxRecDepth 16384

noncomputable section

namespace Cert.Cayley.Kern

open Cert.KernelIdeal Cert.KernelIdeal.Gen
open Idealize.ShloMosaic Idealize.ShloMosaic.TcCoe Idealize.ShloMosaic.ValueIdx Cert.Cayley

/-- The output block as one function of the input block: entry (k, q) is cayK k of column q. -/
def blk9 (x0 : S3x160000.Idx → EReal) : S9x160000.Idx → EReal := fun y =>
  cayK (y 0) (x0 (ix2 0 (y 1))) (x0 (ix2 1 (y 1))) (x0 (ix2 2 (y 1)))

/-! ## A row viewed as a vector and back -/

theorem drop_at (v : Vec Ideal S1x160000 .f32) (q : Fin 160000) :
    shapeCast S160000 v shapeCasts_S1x160000_S160000 (ix1 q) = v (ix2 0 q) :=
  shapeCast_apply v shapeCasts_S1x160000_S160000 (ix1 q) (ix2 0 q)
    (by rewrite [Shape.rowMajor_val_two, Shape.rowMajor_val_one]; show 0 * 160000 + q.val = q.val; omega)

theorem add_at (v : FVec Ideal S160000 .f32) (u : Fin 1) (q : Fin 160000) :
    shapeCast S1x160000 v shapeCasts_S160000_S1x160000 (ix2 u q) = v (ix1 q) :=
  shapeCast_apply v shapeCasts_S160000_S1x160000 (ix2 u q) (ix1 q)
    (by rewrite [Shape.rowMajor_val_one, Shape.rowMajor_val_two]; show q.val = u.val * 160000 + q.val; have := u.isLt; omega)

/-! ## The body's values at lane q, from three loaded rows a, b, c -/

section Lanes

variable (a b c : Vec Ideal S1x160000 .f32) (q : Fin 160000)

theorem x_at : k0_pay4 (F := Ideal) a (ix1 q) = a (ix2 0 q) := drop_at a q
theorem y_at : k0_pay5 (F := Ideal) b (ix1 q) = b (ix2 0 q) := drop_at b q
theorem z_at : k0_pay6 (F := Ideal) c (ix1 q) = c (ix2 0 q) := drop_at c q

theorem s_at : k0_pay7 (F := Ideal) a b c (ix1 q) = sq (a (ix2 0 q)) (b (ix2 0 q)) (c (ix2 0 q)) := by
  show k0_pay4 (F := Ideal) a (ix1 q) * k0_pay4 (F := Ideal) a (ix1 q)
      + k0_pay5 (F := Ideal) b (ix1 q) * k0_pay5 (F := Ideal) b (ix1 q)
      + k0_pay6 (F := Ideal) c (ix1 q) * k0_pay6 (F := Ideal) c (ix1 q) = _
  rw [x_at, y_at, z_at]; rfl

theorem d_at : k0_pay8 (F := Ideal) a b c (ix1 q) = dd (a (ix2 0 q)) (b (ix2 0 q)) (c (ix2 0 q)) := by
  show one - k0_pay7 (F := Ideal) a b c (ix1 q) = _
  rw [s_at]; rfl

theorem inv_at : k0_pay9 (F := Ideal) a b c (ix1 q)
    = Ideal.div one (one + sq (a (ix2 0 q)) (b (ix2 0 q)) (c (ix2 0 q))) := by
  show Ideal.div one (one + k0_pay7 (F := Ideal) a b c (ix1 q)) = _
  rw [s_at]

theorem r0_at : k0_pay10 (F := Ideal) a b c (ix1 q) = cayK 0 (a (ix2 0 q)) (b (ix2 0 q)) (c (ix2 0 q)) := by
  show (k0_pay8 (F := Ideal) a b c (ix1 q) + two * k0_pay4 (F := Ideal) a (ix1 q) * k0_pay4 (F := Ideal) a (ix1 q))
      * k0_pay9 (F := Ideal) a b c (ix1 q) = _
  rw [d_at, x_at, inv_at]; rfl

theorem r1_at : k0_pay11 (F := Ideal) a b c (ix1 q) = cayK 1 (a (ix2 0 q)) (b (ix2 0 q)) (c (ix2 0 q)) := by
  show two * (k0_pay4 (F := Ideal) a (ix1 q) * k0_pay5 (F := Ideal) b (ix1 q) - k0_pay6 (F := Ideal) c (ix1 q))
      * k0_pay9 (F := Ideal) a b c (ix1 q) = _
  rw [x_at, y_at, z_at, inv_at]; rfl

theorem r2_at : k0_pay12 (F := Ideal) a b c (ix1 q) = cayK 2 (a (ix2 0 q)) (b (ix2 0 q)) (c (ix2 0 q)) := by
  show two * (k0_pay4 (F := Ideal) a (ix1 q) * k0_pay6 (F := Ideal) c (ix1 q) + k0_pay5 (F := Ideal) b (ix1 q))
      * k0_pay9 (F := Ideal) a b c (ix1 q) = _
  rw [x_at, y_at, z_at, inv_at]; rfl

theorem r3_at : k0_pay13 (F := Ideal) a b c (ix1 q) = cayK 3 (a (ix2 0 q)) (b (ix2 0 q)) (c (ix2 0 q)) := by
  show two * (k0_pay4 (F := Ideal) a (ix1 q) * k0_pay5 (F := Ideal) b (ix1 q) + k0_pay6 (F := Ideal) c (ix1 q))
      * k0_pay9 (F := Ideal) a b c (ix1 q) = _
  rw [x_at, y_at, z_at, inv_at]; rfl

theorem r4_at : k0_pay14 (F := Ideal) a b c (ix1 q) = cayK 4 (a (ix2 0 q)) (b (ix2 0 q)) (c (ix2 0 q)) := by
  show (k0_pay8 (F := Ideal) a b c (ix1 q) + two * k0_pay5 (F := Ideal) b (ix1 q) * k0_pay5 (F := Ideal) b (ix1 q))
      * k0_pay9 (F := Ideal) a b c (ix1 q) = _
  rw [d_at, y_at, inv_at]; rfl

/-- y·z − x, the difference row 5 doubles. -/
theorem yzx_at : k0_pay15 (F := Ideal) a b c (ix1 q)
    = b (ix2 0 q) * c (ix2 0 q) - a (ix2 0 q) := by
  show k0_pay5 (F := Ideal) b (ix1 q) * k0_pay6 (F := Ideal) c (ix1 q) - k0_pay4 (F := Ideal) a (ix1 q) = _
  rw [x_at, y_at, z_at]

theorem r5_at : mulf (mulf (broadcast S160000 (Scalar.ofBits (F := Ideal) .f32 0x40000000#32)) (k0_pay15 (F := Ideal) a b c))
      (k0_pay9 (F := Ideal) a b c) (ix1 q) = cayK 5 (a (ix2 0 q)) (b (ix2 0 q)) (c (ix2 0 q)) := by
  show two * k0_pay15 (F := Ideal) a b c (ix1 q) * k0_pay9 (F := Ideal) a b c (ix1 q) = _
  rw [yzx_at, inv_at]; rfl

theorem r6_at : k0_pay16 (F := Ideal) (k0_pay4 a) (k0_pay5 b) (k0_pay6 c) (k0_pay9 a b c) (ix1 q)
    = cayK 6 (a (ix2 0 q)) (b (ix2 0 q)) (c (ix2 0 q)) := by
  show two * (k0_pay4 (F := Ideal) a (ix1 q) * k0_pay6 (F := Ideal) c (ix1 q) - k0_pay5 (F := Ideal) b (ix1 q))
      * k0_pay9 (F := Ideal) a b c (ix1 q) = _
  rw [x_at, y_at, z_at, inv_at]; rfl

theorem r7_at : k0_pay17 (F := Ideal) (k0_pay4 a) (k0_pay5 b) (k0_pay6 c) (k0_pay9 a b c) (ix1 q)
    = cayK 7 (a (ix2 0 q)) (b (ix2 0 q)) (c (ix2 0 q)) := by
  show two * (k0_pay5 (F := Ideal) b (ix1 q) * k0_pay6 (F := Ideal) c (ix1 q) + k0_pay4 (F := Ideal) a (ix1 q))
      * k0_pay9 (F := Ideal) a b c (ix1 q) = _
  rw [x_at, y_at, z_at, inv_at]; rfl

theorem r8_at : k0_pay18 (F := Ideal) (k0_pay6 c) (k0_pay8 a b c) (k0_pay9 a b c) (ix1 q)
    = cayK 8 (a (ix2 0 q)) (b (ix2 0 q)) (c (ix2 0 q)) := by
  show (k0_pay8 (F := Ideal) a b c (ix1 q) + two * k0_pay6 (F := Ideal) c (ix1 q) * k0_pay6 (F := Ideal) c (ix1 q))
      * k0_pay9 (F := Ideal) a b c (ix1 q) = _
  rw [d_at, z_at, inv_at]; rfl

end Lanes

/-! ## The nine stored rows at (u, q), u the row's one coordinate -/

section Rows

variable (a b c : Vec Ideal S1x160000 .f32) (u : Fin 1) (q : Fin 160000)

theorem row0 : k0_pay19 (F := Ideal) (k0_pay10 a b c) (ix2 u q) = cayK 0 (a (ix2 0 q)) (b (ix2 0 q)) (c (ix2 0 q)) :=
  (add_at _ u q).trans (r0_at a b c q)
theorem row1 : k0_pay20 (F := Ideal) (k0_pay11 a b c) (ix2 u q) = cayK 1 (a (ix2 0 q)) (b (ix2 0 q)) (c (ix2 0 q)) :=
  (add_at _ u q).trans (r1_at a b c q)
theorem row2 : k0_pay21 (F := Ideal) (k0_pay12 a b c) (ix2 u q) = cayK 2 (a (ix2 0 q)) (b (ix2 0 q)) (c (ix2 0 q)) :=
  (add_at _ u q).trans (r2_at a b c q)
theorem row3 : k0_pay22 (F := Ideal) (k0_pay13 a b c) (ix2 u q) = cayK 3 (a (ix2 0 q)) (b (ix2 0 q)) (c (ix2 0 q)) :=
  (add_at _ u q).trans (r3_at a b c q)
theorem row4 : k0_pay23 (F := Ideal) (k0_pay14 a b c) (ix2 u q) = cayK 4 (a (ix2 0 q)) (b (ix2 0 q)) (c (ix2 0 q)) :=
  (add_at _ u q).trans (r4_at a b c q)

theorem row5 : k0_pay24 (F := Ideal) (k0_pay9 a b c) (k0_pay15 a b c) (Scalar.ofBits .f32 0x40000000#32) (ix2 u q)
    = cayK 5 (a (ix2 0 q)) (b (ix2 0 q)) (c (ix2 0 q)) :=
  (add_at (mulf (mulf (broadcast S160000 (Scalar.ofBits (F := Ideal) .f32 0x40000000#32)) (k0_pay15 (F := Ideal) a b c))
      (k0_pay9 (F := Ideal) a b c)) u q).trans (r5_at a b c q)
theorem row6 : k0_pay1 (F := Ideal) (k0_pay16 (k0_pay4 a) (k0_pay5 b) (k0_pay6 c) (k0_pay9 a b c)) (ix2 u q)
    = cayK 6 (a (ix2 0 q)) (b (ix2 0 q)) (c (ix2 0 q)) :=
  (add_at _ u q).trans (r6_at a b c q)
theorem row7 : k0_pay2 (F := Ideal) (k0_pay17 (k0_pay4 a) (k0_pay5 b) (k0_pay6 c) (k0_pay9 a b c)) (ix2 u q)
    = cayK 7 (a (ix2 0 q)) (b (ix2 0 q)) (c (ix2 0 q)) :=
  (add_at _ u q).trans (r7_at a b c q)
theorem row8 : k0_pay3 (F := Ideal) (k0_pay18 (k0_pay6 c) (k0_pay8 a b c) (k0_pay9 a b c)) (ix2 u q)
    = cayK 8 (a (ix2 0 q)) (b (ix2 0 q)) (c (ix2 0 q)) :=
  (add_at _ u q).trans (r8_at a b c q)

end Rows

/-! ## Rows of the blocks through their rectangles -/

/-- Row k of the input block, loaded, at (0, q) is the block at (k, q). -/
theorem ld_row (x0 : Vec Ideal S3x160000 .f32) (k : Nat) (hk : k < 3) (inb) (q : Fin 160000) :
    View.ld x0 (Rect.unit (s := S3x160000) ![k, 0] S1x160000.size inb) (ix2 0 q) = x0 (ix2 ⟨k, hk⟩ q) := by
  show x0 ((Rect.unit (s := S3x160000) ![k, 0] S1x160000.size inb).emb (ix2 0 q)) = _
  refine congrArg x0 (funext fun a => Fin.ext ?_)
  match a with
  | ⟨0, _⟩ => show k + 1 * 0 = k; omega
  | ⟨1, _⟩ => show 0 + 1 * q.val = q.val; omega

/-- Row k's rectangle of the output block places (u, q) at (k, q). -/
theorem emb_row (k : Nat) (hk : k < 9) (inb) (u : Fin 1) (q : Fin 160000) :
    (Rect.unit (s := S9x160000) ![k, 0] S1x160000.size inb).emb (ix2 u q) = ix2 ⟨k, hk⟩ q := by
  refine funext fun a => Fin.ext ?_
  match a with
  | ⟨0, _⟩ => show k + 1 * u.val = k; have := u.isLt; omega
  | ⟨1, _⟩ => show 0 + 1 * q.val = q.val; omega

/-! ## The block -/

/-- A stored row agrees with blk9 under its rectangle when its payload at (u, q) is cayK k of column q. -/
theorem piece_ok (x0 : Vec Ideal S3x160000 .f32) (k : Nat) (hk : k < 9) (inb) (w : Vec Ideal S1x160000 .f32)
    (hw : ∀ (u : Fin 1) (q : Fin 160000), w (ix2 u q) = cayK ⟨k, hk⟩ (x0 (ix2 0 q)) (x0 (ix2 1 q)) (x0 (ix2 2 q))) :
    ∀ x : (Rect.unit (s := S9x160000) ![k, 0] S1x160000.size inb).shape.Idx,
      w x = blk9 x0 ((Rect.unit (s := S9x160000) ![k, 0] S1x160000.size inb).emb x) := by
  intro x
  obtain ⟨u, q, rfl⟩ : ∃ (u : Fin 1) (q : Fin 160000), x = ix2 u q := ⟨x 0, x 1, eq_ix2 x⟩
  rw [emb_row k hk inb u q]
  exact hw u q

/-- The three loaded rows at lane q are the block's rows 0, 1, 2 at column q. -/
theorem lds (x0 : Vec Ideal S3x160000 .f32) (k : Fin 9) (q : Fin 160000) :
    cayK k (View.ld x0 r0_0 (ix2 0 q)) (View.ld x0 r0_1 (ix2 0 q)) (View.ld x0 r0_2 (ix2 0 q))
      = cayK k (x0 (ix2 0 q)) (x0 (ix2 1 q)) (x0 (ix2 2 q)) := by
  rw [show View.ld x0 r0_0 (ix2 0 q) = x0 (ix2 0 q) from ld_row x0 0 (by decide) _ q,
    show View.ld x0 r0_1 (ix2 0 q) = x0 (ix2 1 q) from ld_row x0 1 (by decide) _ q,
    show View.ld x0 r0_2 (ix2 0 q) = x0 (ix2 2 q) from ld_row x0 2 (by decide) _ q]

/-- What the body leaves in the output block is blk9 of the input block. -/
theorem block_eq (x0 : Vec Ideal S3x160000 .f32) : out0_1 (F := Ideal) x0 = blk9 x0 := by
  funext y
  unfold out0_1
  refine View.canon_apply_of_pieces (Val := Elt Ideal) (blk9 x0) _ ?_ y (cover0_1 _ _ _ _ _ _ _ _ _ y)
  intro p hp
  simp only [List.mem_cons, List.mem_nil_iff, or_false] at hp
  rcases hp with rfl | rfl | rfl | rfl | rfl | rfl | rfl | rfl | rfl
  · exact piece_ok x0 8 (by decide) inb_S9x160000_S1x160000_8_0 _ fun u q => (row8 _ _ _ u q).trans (lds x0 8 q)
  · exact piece_ok x0 7 (by decide) inb_S9x160000_S1x160000_7_0 _ fun u q => (row7 _ _ _ u q).trans (lds x0 7 q)
  · exact piece_ok x0 6 (by decide) inb_S9x160000_S1x160000_6_0 _ fun u q => (row6 _ _ _ u q).trans (lds x0 6 q)
  · exact piece_ok x0 5 (by decide) inb_S9x160000_S1x160000_5_0 _ fun u q => (row5 _ _ _ u q).trans (lds x0 5 q)
  · exact piece_ok x0 4 (by decide) inb_S9x160000_S1x160000_4_0 _ fun u q => (row4 _ _ _ u q).trans (lds x0 4 q)
  · exact piece_ok x0 3 (by decide) inb_S9x160000_S1x160000_3_0 _ fun u q => (row3 _ _ _ u q).trans (lds x0 3 q)
  · exact piece_ok x0 2 (by decide) inb_S9x160000_S1x160000_2_0 _ fun u q => (row2 _ _ _ u q).trans (lds x0 2 q)
  · exact piece_ok x0 1 (by decide) inb_S9x160000_S1x160000_1_0 _ fun u q => (row1 _ _ _ u q).trans (lds x0 1 q)
  · exact piece_ok x0 0 (by decide) inb_S9x160000_S1x160000_0_0 _ fun u q => (row0 _ _ _ u q).trans (lds x0 0 q)

end Cert.Cayley.Kern

end
-- ==== Proof.KernelArray.lean ====
/-
  From blocks to the whole array: after the 25 grid points the [9, N] output array is the lane-dense Cayley map of
  the [3, N] array the region was launched on.

  Point t reads columns 160000·t … 160000·t + 159999 of all three rows and writes the same columns of all nine rows.
  What it writes is blk9 of what it reads, which is the restriction of cols9 to those columns; the 25 column ranges
  cover every column, so the array ends at cols9.
-/
import proofs.«156146_j37452114821515_2_alg».proof.Proof.KernelBlock

set_option maxRecDepth 16384

noncomputable section

namespace Cert.Cayley.Kern

open Cert.KernelIdeal Cert.KernelIdeal.Gen
open Idealize.ShloMosaic Idealize.ShloMosaic.TcCoe Idealize.ShloMosaic.ValueIdx Idealize.SL.Sem Cert.Cayley
open Idealize.ShloMosaic.Pipeline (Dat)

variable (m : (ℓ : Loc nD τ sig) → Buf (Elt Ideal) ℓ)

/-- The printed index maps over the grid: both windows sit at block row 0 and block column t. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, win0_0.index t (0 : Fin 2) = 0 ∧ win0_0.index t (1 : Fin 2) = t.val
    ∧ win0_1.index t (0 : Fin 2) = 0 ∧ win0_1.index t (1 : Fin 2) = t.val)

/-- What point t writes back is block t of cols9 of the array the region found. -/
theorem flushed_eq (c : Dev nD) (t : Fin cfg0.N) :
    (dats m 0 c).flushed 1 t = ((cfg0.win 1).blk t).view.read (Elt Ideal) (cols9 (V m c main_v0)) := by
  show (cfg0.win 1).cut (grid0.coords t) ((dats m 0 c).after 1 t) = _
  rw [after0_1, block_eq]
  obtain ⟨e0, e1, e2, e3⟩ := idx_facts t
  funext j
  show blk9 (iblk m c 0 t) j = cols9 (V m c main_v0) (((cfg0.win 1).blk t).view.emb j)
  unfold blk9 cols9
  have hj0 : (j 0).val < 9 := (j 0).isLt
  have hj1 : (j 1).val < 160000 := (j 1).isLt
  have hx : ∀ k : Fin 3, iblk m c 0 t (ix2 k (j 1)) = V m c main_v0 (ix2 k ((((cfg0.win 1).blk t).view.emb j) 1)) := by
    intro k
    show V m c main_v0 (((cfg0.win 0).blk t).view.emb (ix2 k (j 1))) = _
    refine congrArg (V m c main_v0) (funext fun a => Fin.ext ?_)
    match a with
    | ⟨0, _⟩ => show win0_0.index t (0 : Fin 2) * 3 + 1 * k.val = k.val; omega
    | ⟨1, _⟩ => show win0_0.index t (1 : Fin 2) * 160000 + 1 * (j 1).val = win0_1.index t (1 : Fin 2) * 160000 + 1 * (j 1).val; omega
  have h0 : (((cfg0.win 1).blk t).view.emb j) 0 = j 0 :=
    Fin.ext (by show win0_1.index t (0 : Fin 2) * 9 + 1 * (j 0).val = (j 0).val; omega)
  rw [hx 0, hx 1, hx 2, h0]

/-- An index of the array is in point t's block iff each coordinate is in the block's range on its axis. -/
theorem mem_blk (t : Fin cfg0.N) (i : S9x4000000.Idx) :
    i ∈ ((cfg0.win 1).blk t).view.set ↔ ∀ a : Fin 2, win0_1.index t a * S9x160000.size a ≤ (i a).val
      ∧ (i a).val < win0_1.index t a * S9x160000.size a + S9x160000.size a := by
  show i ∈ ((View.whole main_v1).slice (win0_1.rect t)).set ↔ _
  rw [View.set_slice_whole, Rect.mem_set_unit]
  exact Iff.rfl

/-- Every index is in the block of the point its column falls in. -/
theorem cover (i : S9x4000000.Idx) :
    ∃ t : Fin cfg0.N, (cfg0.win 1).flush t = true ∧ i ∈ ((cfg0.win 1).blk t).view.set := by
  have hi0 : (i 0).val < 9 := (i 0).isLt
  have hi1 : (i 1).val < 4000000 := (i 1).isLt
  have hlt : (i 1).val / 160000 < cfg0.N := by show (i 1).val / 160000 < 25; omega
  refine ⟨⟨(i 1).val / 160000, hlt⟩, flush0_1 _, ?_⟩
  rw [mem_blk]
  obtain ⟨e0, e1, e2, e3⟩ := idx_facts ⟨(i 1).val / 160000, hlt⟩
  intro a
  match a with
  | ⟨0, _⟩ =>
    show win0_1.index ⟨(i 1).val / 160000, hlt⟩ (0 : Fin 2) * 9 ≤ (i 0).val
      ∧ (i 0).val < win0_1.index ⟨(i 1).val / 160000, hlt⟩ (0 : Fin 2) * 9 + 9
    omega
  | ⟨1, _⟩ =>
    show win0_1.index ⟨(i 1).val / 160000, hlt⟩ (1 : Fin 2) * 160000 ≤ (i 1).val
      ∧ (i 1).val < win0_1.index ⟨(i 1).val / 160000, hlt⟩ (1 : Fin 2) * 160000 + 160000
    have e3' : win0_1.index ⟨(i 1).val / 160000, hlt⟩ (1 : Fin 2) = (i 1).val / 160000 := e3
    omega

/-- The output array after the run. -/
theorem final (c : Dev nD) : (dats m 0 c).arrAt 1 cfg0.N = cols9 (V m c main_v0) :=
  (dats m 0 c).arrAt_eq_of_cover 1 (cols9 (V m c main_v0)) (fun t _ => flushed_eq m c t) cover

end Cert.Cayley.Kern

end
-- ==== Proof.KernelValue.lean ====
/-
  The kernel program's result: the host transposes the [N, 3] argument to [3, N], the region maps it to the [9, N]
  array cols9 of it, and the host transposes that to [N, 9] and reshapes to [N, 3, 3].

  Entry (n, i, j) of the result is entry (n, 3·i + j) of the transpose, which is entry (3·i + j, n) of cols9 of the
  transposed argument: cayK (3·i + j) of row n of the argument, and that is cay (3·i + j) of row n — the rotation array.
-/
import proofs.«156146_j37452114821515_2_alg».proof.Proof.KernelArray
import Idealize.ShloMosaic.Lib.StableHlo.Run

set_option maxRecDepth 16384

noncomputable section

namespace Cert.Cayley.Kern

open Cert.KernelIdeal Cert.KernelIdeal.Gen
open Idealize.ShloMosaic Idealize.ShloMosaic.TcCoe Idealize.ShloMosaic.ValueIdx Idealize.SL.Sem Cert.Cayley
open Idealize.ShloMosaic.StableHlo
open Idealize.ShloMosaic.Pipeline (Dat)

variable (m : (ℓ : Loc nD τ sig) → Buf (Elt Ideal) ℓ)

/-- The array the region is launched on is the transpose of the argument. -/
theorem entry (c : Dev nD) : (V m c main_v0 : S3x4000000.Idx → EReal)
    = transpose S3x4000000 [1, 0] (m ((c : Thread nD τ).loc main_arg0)) transposes_S4000000x3_S3x4000000_1_0 := by
  show StableHlo.after hostOps0 (fun b => m (c, b)) (Proc.devRef .tc main_v0) = _
  after_results

/-- Its entry (k, n) is the argument's entry (n, k). -/
theorem entry_at (c : Dev nD) (k : Fin 3) (n : Fin 4000000) :
    V m c main_v0 (ix2 k n) = m ((c : Thread nD τ).loc main_arg0) (ix2 n k) :=
  (congrFun (entry m c) (ix2 k n)).trans
    (transpose_apply [1, 0] _ transposes_S4000000x3_S3x4000000_1_0 (ix2 k n) (ix2 n k)
      (fun b => match b with | ⟨0, _⟩ => rfl | ⟨1, _⟩ => rfl))

/-- The region's output array, as the lines after the region find it. -/
theorem region_out (c : Dev nD) :
    Pipeline.withArrays (cfgs 0).spec c (V0 m c) (fun w => (dats m 0 c).arrAt w (cfgs 0).N) (Proc.devRef .tc main_v1)
      = cols9 (V m c main_v0) :=
  (Pipeline.withArrays_arr spec0 launch0.win.arr_inj c _ _ 1).trans (final m c)

/-- The result buffer after the lines that follow the region is the rotation array of the argument. -/
theorem result (c : Dev nD) : Pipeline.afterTail₀ cfgs (dats m) 0 (V0 m) [hostOps1] c main_v3
    = rot (m ((c : Thread nD τ).loc main_arg0)) := by
  unfold Pipeline.afterTail₀
  show StableHlo.after hostOps1 _ (Proc.devRef .tc main_v3) = _
  after_results
  rw [region_out]
  funext i
  show shapeCast S4000000x3x3 (transpose S4000000x9 [1, 0] (cols9 (V m c main_v0)) transposes_S9x4000000_S4000000x9_1_0)
      shapeCasts_S4000000x9_S4000000x3x3 i = _
  have h0 : (i 0).val < 4000000 := (i 0).isLt
  have h1 : (i 1).val < 3 := (i 1).isLt
  have h2 : (i 2).val < 3 := (i 2).isLt
  have hk : 3 * (i 1).val + (i 2).val < 9 := by omega
  refine (shapeCast_apply _ shapeCasts_S4000000x9_S4000000x3x3 i (ix2 (i 0) ⟨3 * (i 1).val + (i 2).val, hk⟩)
    (by rewrite [Shape.rowMajor_val_two, Shape.rowMajor_val_three]
        show (i 0).val * 9 + (3 * (i 1).val + (i 2).val) = ((i 0).val * 3 + (i 1).val) * 3 + (i 2).val
        omega)).trans ?_
  refine (transpose_apply [1, 0] _ transposes_S9x4000000_S4000000x9_1_0 (ix2 (i 0) ⟨3 * (i 1).val + (i 2).val, hk⟩)
    (ix2 ⟨3 * (i 1).val + (i 2).val, hk⟩ (i 0)) (fun b => match b with | ⟨0, _⟩ => rfl | ⟨1, _⟩ => rfl)).trans ?_
  show cayK ⟨3 * (i 1).val + (i 2).val, hk⟩ (V m c main_v0 (ix2 0 (i 0))) (V m c main_v0 (ix2 1 (i 0))) (V m c main_v0 (ix2 2 (i 0)))
    = cay ⟨3 * (i 1).val + (i 2).val, hk⟩ (m ((c : Thread nD τ).loc main_arg0) (ix2 (i 0) 0))
        (m ((c : Thread nD τ).loc main_arg0) (ix2 (i 0) 1)) (m ((c : Thread nD τ).loc main_arg0) (ix2 (i 0) 2))
  refine (cayK_eq_cay _ _ _ _).trans ?_
  exact congr (congr (congrArg (cay _) (entry_at m c 0 (i 0))) (entry_at m c 1 (i 0))) (entry_at m c 2 (i 0))

/-- The kernel program's run: the result at the rotation array of the argument, the argument unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v3) = rot (m ((c.tc : Thread nD τ).loc main_arg0))
      ∧ r.2.mem ((c.tc : Thread nD τ).loc main_arg0) = m ((c.tc : Thread nD τ).loc main_arg0)) :=
  (θ_run defs _ _).mono (fun r h c =>
      ⟨((h c).2 main_v3 (Pipeline.mem_restRefs_of main_v3 (by decide) (by decide))).trans (result m c),
       ((h c).2 main_arg0 (Pipeline.mem_restRefs_of main_arg0 (by decide) (by decide))).trans (W_main_arg0 m (dats m) c)⟩)
    (run_main m ρ)

end Cert.Cayley.Kern

end
-- ==== Proof.lean ====
/-
  The Cayley map v ↦ R(v) = ((1 − s)·I + 2·A + 2·v·vᵀ) / (1 + s), s = |v|², A the skew matrix of v, over 4,000,000
  rows v = (x, y, z): the kernel against its reference, at the extended reals.

  The reference forms the nine numerators of a row and divides each by 1 + s.  The kernel works on the transposed,
  lane-dense [3, N] layout in 25 column blocks, takes the reciprocal 1 / (1 + s) once per row and multiplies each
  numerator by it, and the host transposes the [9, N] result back and reshapes it to [N, 3, 3].  Numerators, their
  order of operations and the constants 1.0 and 2.0 are the same on both sides; the one difference is
  a · (1 / g) against a / g with g = 1 + s.  On the extended reals a square is never negative, so g ≥ 1 is never
  zero, and for g ≠ 0 both are a · g⁻¹ (Proof/Spec.lean: mul_recip, cayK_eq_cay) — at every extended real, so the
  precondition is not opened.

  Proof/RefValue.lean reads the reference's result index by index as the array rot of its argument;
  Proof/KernelBlock.lean reads what the kernel body leaves in a block; Proof/KernelArray.lean assembles the blocks into
  the [9, N] array; Proof/KernelValue.lean carries it through the host's transposes and reshape to rot of the argument.
  The frames of the two kernel programs and the reference's run are the generated ones; no rewrite was made in
  idealizing the kernel, so that conjunct is True.
-/
import proofs.«156146_j37452114821515_2_alg».proof.Defs
import proofs.«156146_j37452114821515_2_alg».proof.Proof.Gen.Kernel
import proofs.«156146_j37452114821515_2_alg».proof.Proof.Gen.Kernel.Skeleton
import proofs.«156146_j37452114821515_2_alg».proof.Proof.Gen.Kernel.Launch
import proofs.«156146_j37452114821515_2_alg».proof.Proof.Gen.Kernel.Points
import proofs.«156146_j37452114821515_2_alg».proof.Proof.Gen.Kernel.Frame
import proofs.«156146_j37452114821515_2_alg».proof.Proof.Gen.KernelIdeal
import proofs.«156146_j37452114821515_2_alg».proof.Proof.Gen.KernelIdeal.Skeleton
import proofs.«156146_j37452114821515_2_alg».proof.Proof.Gen.KernelIdeal.Launch
import proofs.«156146_j37452114821515_2_alg».proof.Proof.Gen.KernelIdeal.Points
import proofs.«156146_j37452114821515_2_alg».proof.Proof.Gen.KernelIdeal.Frame
import proofs.«156146_j37452114821515_2_alg».proof.Proof.Gen.ReferenceIdeal
import proofs.«156146_j37452114821515_2_alg».proof.Proof.Gen.Pre_finite_inputs
import proofs.«156146_j37452114821515_2_alg».proof.Proof.Gen.ReferenceIdeal.Run
import proofs.«156146_j37452114821515_2_alg».proof.Proof.Gen.ReferenceIdeal.Read
import proofs.«156146_j37452114821515_2_alg».proof.Proof.Spec
import proofs.«156146_j37452114821515_2_alg».proof.Proof.RefValue
import proofs.«156146_j37452114821515_2_alg».proof.Proof.KernelValue
import Idealize.ShloMosaic.Adequacy
import Idealize.ShloMosaic.Init

noncomputable section

namespace Cert.Proof

open Idealize.ShloMosaic Idealize.ShloMosaic.TcCoe Idealize.SL.Sem

/-- Both idealized programs end with the rotation array of the argument: the kernel by its value through the region
    and the host lines around it, the reference by its run read index by index; the arguments agree. -/
theorem algebraic : Cert.algebraic_KernelIdeal_ReferenceIdeal := by
  intro m ρ m' ρ' _ hagree
  refine ⟨fun c => Cert.Cayley.rot (m ((c.tc : Thread Cert.KernelIdeal.nD Cert.KernelIdeal.τ).loc Cert.KernelIdeal.main_arg0)),
    Cert.Cayley.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.Cayley.Ref.result_eq, hagree c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
